-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel

variable [Facts]

def fn {F : FTy → Type} [FloatOps F] (main_arg0 : FVec F S2000000x64 .f32) (main_arg1 : FVec F S2000000x64 .f32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  let main_v4 : FVec F S2000000x64 .f32 := Host.absf main_arg1
  let main_cst_0 : FVec F S_ .f32 := constant S_ .f32 0x7F800000#32
  let main_v5 : FVec F S2000000x64 .f32 := broadcastInDim S2000000x64 ![] bcast_S_S2000000x64 main_cst_0
  let main_v6 : IVec S2000000x64 1 := cmpf .olt main_v4 main_v5
  let main_c_1 : IVec S_ 1 := constantI S_ 1 1#1
  let main_v7 : IVec S_ 1 := (fun x v => Host.reduce IntOp.andi x v reducesTo_S2000000x64_S_d0_1 h_S_) main_v6 main_c_1
  let main_v8 : IVec S_ 1 := andi main_v3 main_v7
  main_v8
-- ==== Kernel.lean ====
abbrev S2000000x64 : Shape := ⟨2, ![2000000, 64]⟩
abbrev S1000000x128 : Shape := ⟨2, ![1000000, 128]⟩
abbrev S100x1x1 : Shape := ⟨3, ![100, 1, 1]⟩
abbrev S10000x128 : Shape := ⟨2, ![10000, 128]⟩
abbrev S1x1x1 : Shape := ⟨3, ![1, 1, 1]⟩
abbrev S10000x64 : Shape := ⟨2, ![10000, 64]⟩
abbrev S10000 : Shape := ⟨1, ![10000]⟩
abbrev S10000x1 : Shape := ⟨2, ![10000, 1]⟩
abbrev S1 : Shape := ⟨1, ![1]⟩
abbrev S1x1 : Shape := ⟨2, ![1, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S2000000x64, .f32⟩
  | .hbm, ⟨1, _⟩ => ⟨S2000000x64, .f32⟩
  | .hbm, ⟨2, _⟩ => ⟨S1000000x128, .f32⟩
  | .hbm, ⟨3, _⟩ => ⟨S1000000x128, .f32⟩
  | .hbm, ⟨4, _⟩ => ⟨S100x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S1x1x1, .f32⟩
  | .local _ .vmem, ⟨5, _⟩ => ⟨S1x1x1, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2000000x64_S1000000x128 : S2000000x64.ShapeCasts S1000000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  slices_S10000x128_o0_0_S10000x64 : S10000x128.Slices ![0, 0] S10000x64
  reduces_S10000x64_S10000 : S10000x64.Reduces [1] S10000
  shapeCasts_S10000_S10000x1 : S10000.ShapeCasts S10000x1
  slices_S10000x128_o0_64_S10000x64 : S10000x128.Slices ![0, 64] S10000x64
  reduces_S10000x1_S1 : S10000x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S100x1x1_S_d0_1_2 : S100x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1000000x128.size a
  hwx0_0 : ∀ i : grid0.Coords, EltTy.bits .f32 = 32 ∨ (Rect.block (s := S1000000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S1000000x128.size a
  hwx0_1 : ∀ i : grid0.Coords, EltTy.bits .f32 = 32 ∨ (Rect.block (s := S1000000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S100x1x1.size a
  hwx0_2 : ∀ i : grid0.Coords, EltTy.bits .f32 = 32 ∨ (Rect.block (s := S100x1x1) S1x1x1.size (cc0_transform_2 i) (hinb0_2 i)).WholeWords (EltTy.packing .f32)

variable [Facts₀]

abbrev win0_0 : Pipeline.Window sig grid0 :=
  Pipeline.Window.ofSpec (Memref.whole main_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000000x64 : Shape := ⟨2, ![2000000, 64]⟩
abbrev S_ : Shape := ⟨0, ![]⟩
abbrev S2000000 : Shape := ⟨1, ![2000000]⟩

abbrev nBuf : Space → Nat
  | .hbm => 11
  | .vmem => 0
  | .smem => 0
  | _ => 0

abbrev bufTy : (tb : Table) → Fin (tcTables nBuf tb) → BufTy
  | .hbm, ⟨0, _⟩ => ⟨S2000000x64, .f32⟩
  | .hbm, ⟨1, _⟩ => ⟨S2000000x64, .f32⟩
  | .hbm, ⟨2, _⟩ => ⟨S2000000x64, .f32⟩
  | .hbm, ⟨3, _⟩ => ⟨S2000000x64, .f32⟩
  | .hbm, ⟨4, _⟩ => ⟨S_, .f32⟩
  | .hbm, ⟨5, _⟩ => ⟨S2000000, .f32⟩
  | .hbm, ⟨6, _⟩ => ⟨S2000000, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  reducesTo_S2000000x64_S2000000_d1 : S2000000x64.ReducesTo [1] S2000000
  h_S_ : 0 < S_.numel
  reducesTo_S2000000_S_d0 : S2000000.ReducesTo [0] S_

variable [Facts₀]

class Facts : Prop extends Facts₀ where

variable [Facts]
-- ==== Proof.LibChunkSum.lean ====
/-
  A finite sum taken chunk by chunk.

  The first `n * B` numbers are `n` consecutive chunks of `B` consecutive numbers, position `j` of chunk `c` being
  the number `c * B + j`; in a commutative monoid a sum over all of them is the sum over the chunks of each chunk's
  sum.  And a sum over nine terms is the nine added one after the other onto zero, from the left — the shape an
  accumulator that starts at zero and takes nine partial sums in turn ends with.
-/
import Mathlib.Algebra.BigOperators.Fin
import Mathlib.Logic.Equiv.Fin.Basic

namespace Cert.ChunkSum

variable {M : Type*} [AddCommMonoid M]

/-- The sum over `Fin (n * B)` is the sum over the `n` chunks of the sum over each chunk's `B` positions. -/
theorem sum_fin_chunks (n B : ℕ) (G : Fin (n * B) → M) :
    ∑ k : Fin (n * B), G k
      = ∑ c : Fin n, ∑ j : Fin B, G ⟨c.val * B + j.val, by
          have hc := c.isLt; have hj := j.isLt
          have h1 : c.val * B + j.val < (c.val + 1) * B := by rw [Nat.succ_mul]; omega
          exact lt_of_lt_of_le h1 (Nat.mul_le_mul_right B hc)⟩ := by
  rw [← Equiv.sum_comp finProdFinEquiv G, Fintype.sum_prod_type]
  refine Finset.sum_congr rfl fun c _ => Finset.sum_congr rfl fun j _ => congrArg G (Fin.ext ?_)
  show j.val + B * c.val = c.val * B + j.val
  rw [Nat.mul_comm, Nat.add_comm]

/-- Nine terms added one after the other onto zero, from the left, are their sum. -/
theorem sum_fin_nine (s : Fin 9 → M) :
    ∑ c : Fin 9, s c = ((((((((0 + s 0) + s 1) + s 2) + s 3) + s 4) + s 5) + s 6) + s 7) + s 8 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_zero]
  rfl

end Cert.ChunkSum
-- ==== Proof.Spec.lean ====
/-
  The mean Euclidean norm of the rows of a difference of two matrices, and the same number taken block by block.

  The two arrays have 2 000 000 rows of 64 entries.  Row `n` of `A − B` has the norm `√(Σ_c (A[n,c] − B[n,c])²)`; the
  result is the sum of the 2 000 000 norms divided by 2 000 000.  Everything is read on the extended reals, where the
  sum of the norms is a sum in a commutative monoid: it may be taken in any grouping.  The grouping used below pairs
  row `2k` with row `2k + 1` (the two halves of one 128-entry row of the arrays viewed as 1 000 000 × 128) and cuts the
  1 000 000 pairs into 100 consecutive blocks of 10 000 pairs; the total is then the sum over the blocks of each
  block's sum over its pairs of the two norms added.  No finiteness of an entry is used.
-/
import Idealize.ShloMosaic.Lib.ValueIdx
import Idealize.ShloMosaic.PureOps.Ideal.Laws
import proofs.«154441_j78434692760202_2_alg».proof.Proof.LibChunkSum

noncomputable section

open scoped BigOperators

namespace Cert.MeanRowNorm

open Idealize.ShloMosaic Idealize.ShloMosaic.ValueIdx

/-- The shape of the two argument arrays: 2 000 000 rows of 64 entries. -/
abbrev Rows : Shape := ⟨2, ![2000000, 64]⟩

/-! ## A sum over 2 000 000 terms, taken as 100 blocks of 10 000 pairs -/

/-- In a commutative monoid the sum of 2 000 000 terms is the sum, over 100 blocks and over the 10 000 pairs of a block,
    of the pair's two terms added: pair `r` of block `b` holds the terms numbered `2·(10000·b + r)` and the next one. -/
theorem sum_pairs_blocks {M : Type*} [AddCommMonoid M] (f : Fin 2000000 → M) :
    ∑ n : Fin 2000000, f n
      = ∑ b : Fin 100, ∑ r : Fin 10000,
          (f ⟨(b.val * 10000 + r.val) * 2, by have := b.isLt; have := r.isLt; omega⟩
            + f ⟨(b.val * 10000 + r.val) * 2 + 1, by have := b.isLt; have := r.isLt; omega⟩) := by
  have pairs : ∑ n : Fin 2000000, f n
      = ∑ k : Fin 1000000, (f ⟨k.val * 2, by have := k.isLt; omega⟩ + f ⟨k.val * 2 + 1, by have := k.isLt; omega⟩) := by
    refine (Cert.ChunkSum.sum_fin_chunks 1000000 2 f).trans (Finset.sum_congr rfl fun k _ => ?_)
    rw [Fin.sum_univ_two]
    rfl
  rw [pairs]
  exact Cert.ChunkSum.sum_fin_chunks 100 10000
    (fun k : Fin (100 * 10000) => f ⟨k.val * 2, by have := k.isLt; omega⟩ + f ⟨k.val * 2 + 1, by have := k.isLt; omega⟩)

/-! ## The result, as a function of the two arrays -/

section
variable (A B : Rows.Idx → EReal)

/-- The squared difference of the two arrays at row `n`, column `c`. -/
def sqDiff (n : Fin 2000000) (c : Fin 64) : EReal :=
  (A (ix2 n c) - B (ix2 n c)) * (A (ix2 n c) - B (ix2 n c))

/-- The norm of row `n` of `A − B`: the square root of the row's sum of squared differences. -/
def rowNorm (n : Fin 2000000) : EReal := Ideal.sqrt (∑ c : Fin 64, sqDiff A B n c)

/-- The sum of the 2 000 000 rows' norms. -/
def total : EReal := ∑ n : Fin 2000000, rowNorm A B n

/-- Block `b`'s share of that sum: over its 10 000 pairs of consecutive rows, the two rows' norms added. -/
def blockSum (b : Fin 100) : EReal :=
  ∑ r : Fin 10000,
    (rowNorm A B ⟨(b.val * 10000 + r.val) * 2, by have := b.isLt; have := r.isLt; omega⟩
      + rowNorm A B ⟨(b.val * 10000 + r.val) * 2 + 1, by have := b.isLt; have := r.isLt; omega⟩)

/-- The total is the sum of the 100 blocks' shares. -/
theorem total_eq_blocks : total A B = ∑ b : Fin 100, blockSum A B b :=
  sum_pairs_blocks (rowNorm A B)

/-- The mean of the rows' norms: the total divided by the float word of 2 000 000, which both programs carry. -/
def mean : EReal := Ideal.div (total A B) (Ideal.ofBits .f32 0x49F42400#32)

end

end Cert.MeanRowNorm

end
-- ==== Proof.LibIdxSum.lean ====
/-
  A sum over the indices of a one-axis array, or of an array whose only axis longer than one is the first, is the sum
  over that axis's coordinates: the index set is in bijection with the coordinate's range, every other coordinate
  being 0.
-/
import Idealize.ShloMosaic.Lib.ValueIdx

noncomputable section

open scoped BigOperators

namespace Cert.IdxSum

open Idealize.ShloMosaic Idealize.ShloMosaic.ValueIdx

/-- The indices of an array of `n` entries are the numbers below `n`. -/
def idxEquiv1 {n : Nat} : (⟨1, ![n]⟩ : Shape).Idx ≃ Fin n where
  toFun i := i 0
  invFun a := ix1 a
  left_inv i := (eq_ix1 i).symm
  right_inv _ := rfl

/-- A sum over the indices of an array of `n` entries is the sum over the numbers below `n`. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The indices of an `n × 1 × 1` array are the numbers below `n`: the two unit coordinates are 0. -/
def idxEquiv3Unit {n : Nat} : (⟨3, ![n, 1, 1]⟩ : Shape).Idx ≃ Fin n where
  toFun i := i 0
  invFun a := ix3 a (0 : Fin 1) (0 : Fin 1)
  left_inv i := by
    funext d
    match d with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv _ := rfl

/-- A sum over the indices of an `n × 1 × 1` array is the sum over the numbers below `n`. -/
theorem sum_idx3_unit {M : Type*} [AddCommMonoid M] {n : Nat} (f : (⟨3, ![n, 1, 1]⟩ : Shape).Idx → M) :
    ∑ i, f i = ∑ a : Fin n, f (ix3 a (0 : Fin 1) (0 : Fin 1)) := by
  rw [← Equiv.sum_comp (idxEquiv3Unit (n := n)).symm f]
  rfl

end Cert.IdxSum

end
-- ==== Proof.RefIsSpec.lean ====
/-
  The reference program's result is the mean of the rows' norms.

  Read one operation at a time: the difference and its square are entrywise; the first sum runs over a row's 64
  columns from the zero word, which is 0; the host's square root is the extended reals' one; the second sum runs over
  the 2 000 000 rows from the zero word again; the quotient is by the word of 2 000 000.  Index by index this is the
  specification's `mean`, with nothing to regroup.
-/
import proofs.«154441_j78434692760202_2_alg».proof.Proof.Gen.ReferenceIdeal.Read
import proofs.«154441_j78434692760202_2_alg».proof.Proof.Spec
import proofs.«154441_j78434692760202_2_alg».proof.Proof.LibIdxSum

noncomputable section

open scoped BigOperators

namespace Cert.ReferenceIdeal.RefValue

open Cert.ReferenceIdeal Cert.ReferenceIdeal.Read Idealize.ShloMosaic Idealize.ShloMosaic.ValueIdx Cert.MeanRowNorm

/-- The index the row sum reads, row `n` and column `c`, by coordinates. -/
theorem idx_row (n : Fin 2000000) (c : Fin 64) : idx_main_v2 (ix1 n) c = ix2 n c :=
  funext fun a => Fin.ext (by match a with | ⟨0, _⟩ => rfl | ⟨1, _⟩ => rfl)

/-- The reference's square root stage at row `n` is that row's norm. -/
theorem norm_apply (x0 x1 : (⟨S2000000x64, .f32⟩ : BufTy).Contents (Elt Ideal)) (n : Fin 2000000) :
    val_main_v3 (F := Ideal) x0 x1 (ix1 n) = rowNorm x0 x1 n := by
  rw [val_main_v3_apply, val_main_v2_apply, val_main_cst_apply, Ideal.hostUnary_sqrt_def, Ideal.ofBits_def,
    Ideal.ofBits_zero_f32, zero_add]
  unfold rowNorm
  refine congrArg Ideal.sqrt (Finset.sum_congr rfl fun c _ => ?_)
  rw [val_main_v1_apply, val_main_v0_apply, idx_row]
  rfl

/-- The reference's result, at its one index, is the mean of the rows' norms. -/
theorem result_apply (x0 x1 : (⟨S2000000x64, .f32⟩ : BufTy).Contents (Elt Ideal)) (i : S_.Idx) :
    val_main_v5 (F := Ideal) x0 x1 i = mean x0 x1 := by
  rw [val_main_v5_apply, val_main_v4_apply, val_main_cst_0_apply, val_main_cst_1_apply, Ideal.hostDivf_def,
    Ideal.ofBits_def, Ideal.ofBits_def, Ideal.ofBits_zero_f32, zero_add, Cert.IdxSum.sum_idx1]
  unfold mean total
  simp only [norm_apply]

end Cert.ReferenceIdeal.RefValue

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payload.lean ====
/-
  What the kernel body stores at one grid point, as a number.

  The body loads a 10000 × 128 block of each array, takes the entrywise difference and its square, sums the squares of
  the first 64 columns and of the last 64 columns of every row, takes the square root of each of the two sums, adds the
  two roots row by row and sums the 10 000 row values; the one number left is stored.  Each 128-entry block row holds two
  64-entry rows of the original arrays back to back, so the two roots are the norms of two consecutive rows.

  Read at the extended reals: a sum over one axis is the finite sum over that axis's coordinates, a cast that only
  adds or drops unit axes keeps the entry, a slice of columns from `o` reads column `o + c`.
-/
import proofs.«154441_j78434692760202_2_alg».proof.Proof.Gen.KernelIdeal.Skeleton
import proofs.«154441_j78434692760202_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The block's number, as a function of the two loaded blocks -/

section
variable (x0 x1 : FVec Ideal S10000x128 .f32)

/-- The squared difference of the two blocks at row `r`, column `C`. -/
def sqBlk (r : Fin 10000) (C : Fin 128) : EReal :=
  (x0 (ix2 r C) - x1 (ix2 r C)) * (x0 (ix2 r C) - x1 (ix2 r C))

/-- The norm of the 64 entries of block row `r` that start at column `o`. -/
def halfNorm (o : Nat) (ho : o + 64 ≤ 128) (r : Fin 10000) : EReal :=
  Ideal.sqrt (∑ c : Fin 64, sqBlk x0 x1 r ⟨o + c.val, by have := c.isLt; omega⟩)

/-- The block's number: over its 10 000 rows, the norm of the left half plus the norm of the right half. -/
def blockTotal : EReal :=
  ∑ r : Fin 10000, (halfNorm x0 x1 0 (by omega) r + halfNorm x0 x1 64 (by omega) r)

end

/-! ## The body's operations, one at a time, read at an index -/

/-- The squared difference, as the body computes it, at row `r`, column `C`. -/
theorem sq_apply (x0 x1 : FVec Ideal S10000x128 .f32) (h : S10000x128.ShapeCasts S10000x128) (r : Fin 10000) (C : Fin 128) :
    mulf (subf (shapeCast S10000x128 x0 h) (shapeCast S10000x128 x1 h))
        (subf (shapeCast S10000x128 x0 h) (shapeCast S10000x128 x1 h)) (ix2 r C)
      = sqBlk x0 x1 r C := by
  rw [shapeCast_self, shapeCast_self]
  rfl

/-- A sum along the 64 columns, at row `r`: the sum of the row's 64 entries. -/
theorem rowsum_apply (v : FVec Ideal S10000x64 .f32) (h : S10000x64.Reduces [1] S10000) (hφ : FKind.Formats .f32)
    (hacc : (0x00000000#32 : BitVec (FTy.bits .f32)) = FKind.neutral .add .f32 hφ) (r : Fin 10000) :
    multiReduction .add [1] S10000 v 0x00000000#32 h hφ hacc (ix1 r) = ∑ c : Fin 64, v (ix2 r c) := by
  refine (Ideal.multiReduction_add_single v 0x00000000#32 h hφ hacc (ix1 r)).trans ?_
  refine Finset.sum_congr rfl fun c _ => congrArg v (funext fun a => Fin.ext ?_)
  match a with
  | ⟨0, _⟩ => rfl
  | ⟨1, _⟩ => rfl

/-- A sum down the 10 000 rows of a column, at its one entry: the sum of the column's 10 000 entries. -/
theorem colsum_apply (v : FVec Ideal S10000x1 .f32) (h : S10000x1.Reduces [0] S1) (hφ : FKind.Formats .f32)
    (hacc : (0x00000000#32 : BitVec (FTy.bits .f32)) = FKind.neutral .add .f32 hφ) (u : Fin 1) :
    multiReduction .add [0] S1 v 0x00000000#32 h hφ hacc (ix1 u) = ∑ r : Fin 10000, v (ix2 r u) := by
  refine (Ideal.multiReduction_add_single v 0x00000000#32 h hφ hacc (ix1 u)).trans ?_
  refine Finset.sum_congr rfl fun r _ => congrArg v (funext fun a => Fin.ext ?_)
  match a with
  | ⟨0, _⟩ => rfl
  | ⟨1, _⟩ => rfl

/-- One entry cast to 1 × 1 and then to 1 × 1 × 1 is that entry. -/
theorem unit_casts {α : Type} (v : (⟨1, ![1]⟩ : Shape).Idx → α) (h1 : (⟨1, ![1]⟩ : Shape).ShapeCasts ⟨2, ![1, 1]⟩)
    (h2 : (⟨2, ![1, 1]⟩ : Shape).ShapeCasts ⟨3, ![1, 1, 1]⟩) (j : (⟨3, ![1, 1, 1]⟩ : Shape).Idx) :
    shapeCast ⟨3, ![1, 1, 1]⟩ (shapeCast ⟨2, ![1, 1]⟩ v h1) h2 j = v (ix1 (0 : Fin 1)) := by
  refine (shapeCast_apply _ h2 j (ix2 (0 : Fin 1) (0 : Fin 1)) ?_).trans
    (shapeCast_apply v h1 (ix2 (0 : Fin 1) (0 : Fin 1)) (ix1 (0 : Fin 1)) ?_)
  · have b0 : (j 0).val < 1 := (j 0).isLt
    have b1 : (j 1).val < 1 := (j 1).isLt
    have b2 : (j 2).val < 1 := (j 2).isLt
    rw [Shape.rowMajor_val_two, Shape.rowMajor_val_three]
    show 0 * 1 + 0 = ((j 0).val * 1 + (j 1).val) * 1 + (j 2).val
    omega
  · rw [Shape.rowMajor_val_one, Shape.rowMajor_val_two]
    rfl

/-- The root of the sum of the squares of the 64 columns from `o`, kept as a column, at row `r`. -/
theorem half_apply (v : FVec Ideal S10000x128 .f32) (o : Nat) (ho : o + 64 ≤ 128)
    (hs : S10000x128.Slices ![0, o] S10000x64) (hr : S10000x64.Reduces [1] S10000) (hφ : FKind.Formats .f32)
    (hacc : (0x00000000#32 : BitVec (FTy.bits .f32)) = FKind.neutral .add .f32 hφ) (hc : S10000.ShapeCasts S10000x1)
    (r : Fin 10000) (u : Fin 1) :
    sqrt (shapeCast S10000x1
        (multiReduction .add [1] S10000 (extractStridedSlice S10000x64 ![0, o] v hs) 0x00000000#32 hr hφ hacc) hc) (ix2 r u)
      = Ideal.sqrt (∑ c : Fin 64, v (ix2 r ⟨o + c.val, by have := c.isLt; omega⟩)) := by
  show Ideal.sqrt (shapeCast S10000x1
      (multiReduction .add [1] S10000 (extractStridedSlice S10000x64 ![0, o] v hs) 0x00000000#32 hr hφ hacc) hc (ix2 r u)) = _
  refine congrArg Ideal.sqrt ?_
  refine (Cert.Keepdims.shapeCast_a_a1_apply _ hc r u).trans ?_
  refine (rowsum_apply _ hr hφ hacc r).trans ?_
  exact Finset.sum_congr rfl fun c _ =>
    slice2_axis1_apply o v hs r c ⟨o + c.val, by have := c.isLt; omega⟩ rfl

/-! ## The stored number -/

/-- The body's stored value, at its one index, is the block's number. -/
theorem pay_apply (x0 x1 : FVec Ideal S10000x128 .f32) (j : S1x1x1.Idx) :
    k0_pay1 (F := Ideal) x0 x1 j = blockTotal x0 x1 := by
  unfold k0_pay1
  refine (unit_casts _ _ _ j).trans ?_
  refine (colsum_apply _ _ _ _ (0 : Fin 1)).trans ?_
  unfold blockTotal halfNorm
  refine Finset.sum_congr rfl fun r _ => ?_
  refine (addf_apply _ _ _).trans ?_
  refine congrArg₂ (· + ·) ((half_apply _ 0 (by omega) _ _ _ _ _ r 0).trans ?_)
    ((half_apply _ 64 (by omega) _ _ _ _ _ r 0).trans ?_)
  · exact congrArg Ideal.sqrt (Finset.sum_congr rfl fun c _ => sq_apply x0 x1 _ r _)
  · exact congrArg Ideal.sqrt (Finset.sum_congr rfl fun c _ => sq_apply x0 x1 _ r _)

end Cert.KernelIdeal.BlockValue

end
-- ==== Proof.Blocks.lean ====
/-
  The region's output: 100 numbers, one a grid point.

  Before the region the two 2 000 000 × 64 arrays are viewed, row-major, as 1 000 000 × 128: entry (R, C) of the view is
  entry (n, c) of the array with n·64 + c = R·128 + C, so a 128-entry row of the view is rows 2R and 2R + 1 of the array
  back to back.  Grid point `t` is handed rows 10000·t … 10000·t + 9999 of each view and writes back one number, entry
  (t, 0, 0) of the 100 × 1 × 1 output.  Row `r` of the block is row 10000·t + r of the view; its left half is row
  2·(10000·t + r) of the array and its right half the next row.  So the number point `t` writes is block `t`'s share of the
  sum of the rows' norms, and, the 100 one-entry blocks tiling the output, the output array ends holding the 100 shares.
-/
import proofs.«154441_j78434692760202_2_alg».proof.Proof.Gen.KernelIdeal.Frame
import proofs.«154441_j78434692760202_2_alg».proof.Proof.Payload
import proofs.«154441_j78434692760202_2_alg».proof.Proof.Spec
import Idealize.ShloMosaic.Lib.StableHlo.Run
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.StableHlo Idealize.ShloMosaic.ValueIdx Cert.MeanRowNorm Cert.KernelIdeal.BlockValue
open Idealize.ShloMosaic.Pipeline (Dat)

variable (m : (ℓ : Loc nD τ sig) → Buf (Elt Ideal) ℓ)

/-- The first argument array as launched, on core `c`. -/
abbrev argA (c : Dev nD) : Rows.Idx → EReal := m ((c : Thread nD τ).loc main_arg0)
/-- The second argument array as launched, on core `c`. -/
abbrev argB (c : Dev nD) : Rows.Idx → EReal := m ((c : Thread nD τ).loc main_arg1)

/-! ## The two views the region reads -/

/-- A 2 000 000 × 64 array viewed row-major as 1 000 000 × 128: the view's entry at `k` is the array's entry (n, c)
    with the same row-major position. -/
theorem view_apply {α : Type} (A : Rows.Idx → α) (h : Rows.ShapeCasts ⟨2, ![1000000, 128]⟩)
    (k : (⟨2, ![1000000, 128]⟩ : Shape).Idx) (n : Fin 2000000) (cc : Fin 64)
    (hk : n.val * 64 + cc.val = (k 0).val * 128 + (k 1).val) :
    shapeCast ⟨2, ![1000000, 128]⟩ A h k = A (ix2 n cc) :=
  shapeCast_apply A h k (ix2 n cc) (by
    rw [Shape.rowMajor_val_two, Shape.rowMajor_val_two]
    show n.val * 64 + cc.val = (k 0).val * 128 + (k 1).val
    exact hk)

/-- The region finds the first view as the cast of the first argument array. -/
theorem V_v0 (c : Dev nD) :
    (V m c main_v0 : S1000000x128.Idx → EReal)
      = shapeCast S1000000x128 (argA m c) Facts₀.shapeCasts_S2000000x64_S1000000x128 := by
  show StableHlo.after hostOps0 (fun b => m (c, b)) (Proc.devRef .tc main_v0) = _
  after_results
  rfl

/-- The region finds the second view as the cast of the second argument array. -/
theorem V_v1 (c : Dev nD) :
    (V m c main_v1 : S1000000x128.Idx → EReal)
      = shapeCast S1000000x128 (argB m c) Facts₀.shapeCasts_S2000000x64_S1000000x128 := by
  show StableHlo.after hostOps0 (fun b => m (c, b)) (Proc.devRef .tc main_v1) = _
  after_results
  rfl

/-! ## Where each grid point's blocks sit -/

/-- The printed index maps over the grid: at point `t` each input block is the `t`-th along the rows and the whole
    width, and the output block is the `t`-th along the first axis. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Entry (r, C) of the first input block at point `t` is entry (n, c) of the first argument array, where
    n·64 + c = (10000·t + r)·128 + C. -/
theorem iblk0_apply (c : Dev nD) (t : Fin cfg0.N) (r : Fin 10000) (C : Fin 128) (n : Fin 2000000) (cc : Fin 64)
    (hn : n.val * 64 + cc.val = (t.val * 10000 + r.val) * 128 + C.val) :
    iblk m c 0 t (ix2 r C) = argA m c (ix2 n cc) := by
  obtain ⟨e0, e1, -⟩ := idx_facts t
  show V m c main_v0 (((cfg0.win 0).blk t).view.emb (ix2 r C)) = _
  rw [V_v0]
  refine view_apply _ _ _ n cc ?_
  show n.val * 64 + cc.val
    = (win0_0.index t (0 : Fin 2) * 10000 + 1 * r.val) * 128 + (win0_0.index t (1 : Fin 2) * 128 + 1 * C.val)
  rw [e0, e1]
  omega

/-- The same for the second input block and the second argument array. -/
theorem iblk1_apply (c : Dev nD) (t : Fin cfg0.N) (r : Fin 10000) (C : Fin 128) (n : Fin 2000000) (cc : Fin 64)
    (hn : n.val * 64 + cc.val = (t.val * 10000 + r.val) * 128 + C.val) :
    iblk m c 1 t (ix2 r C) = argB m c (ix2 n cc) := by
  obtain ⟨-, -, e0, e1, -⟩ := idx_facts t
  show V m c main_v1 (((cfg0.win 1).blk t).view.emb (ix2 r C)) = _
  rw [V_v1]
  refine view_apply _ _ _ n cc ?_
  show n.val * 64 + cc.val
    = (win0_1.index t (0 : Fin 2) * 10000 + 1 * r.val) * 128 + (win0_1.index t (1 : Fin 2) * 128 + 1 * C.val)
  rw [e0, e1]
  omega

/-! ## The number a grid point writes -/

/-- The blocks' squared difference at (r, C) is the arrays' at (n, c), the positions related as above. -/
theorem sq_eq (c : Dev nD) (t : Fin cfg0.N) (r : Fin 10000) (C : Fin 128) (n : Fin 2000000) (cc : Fin 64)
    (hn : n.val * 64 + cc.val = (t.val * 10000 + r.val) * 128 + C.val) :
    sqBlk (iblk m c 0 t) (iblk m c 1 t) r C = sqDiff (argA m c) (argB m c) n cc := by
  unfold sqBlk sqDiff
  rw [iblk0_apply m c t r C n cc hn, iblk1_apply m c t r C n cc hn]

/-- The number the body computes from point `t`'s blocks is block `t`'s share of the sum of the rows' norms. -/
theorem block_eq (c : Dev nD) (t : Fin cfg0.N) (ht : t.val < 100) :
    blockTotal (iblk m c 0 t) (iblk m c 1 t) = blockSum (argA m c) (argB m c) ⟨t.val, ht⟩ := by
  unfold blockTotal blockSum halfNorm rowNorm
  refine Finset.sum_congr rfl fun r _ => ?_
  have hr : r.val < 10000 := r.isLt
  refine congrArg₂ (· + ·) (congrArg Ideal.sqrt (Finset.sum_congr rfl fun cc _ => ?_))
    (congrArg Ideal.sqrt (Finset.sum_congr rfl fun cc _ => ?_))
  · refine sq_eq m c t r _ _ cc ?_
    have hc : cc.val < 64 := cc.isLt
    show (t.val * 10000 + r.val) * 2 * 64 + cc.val = (t.val * 10000 + r.val) * 128 + (0 + cc.val)
    omega
  · refine sq_eq m c t r _ _ cc ?_
    have hc : cc.val < 64 := cc.isLt
    show ((t.val * 10000 + r.val) * 2 + 1) * 64 + cc.val = (t.val * 10000 + r.val) * 128 + (64 + cc.val)
    omega

/-! ## The output array after the region -/

/-- The 100 blocks' shares, laid out as the 100 × 1 × 1 output. -/
def partials (c : Dev nD) : S100x1x1.Idx → EReal :=
  fun i => blockSum (argA m c) (argB m c) ⟨(i 0).val, (i 0).isLt⟩

theorem hz2 : (![0, 0] : Fin 2 → Nat) = fun _ => 0 := funext fun a => by fin_cases a <;> rfl
theorem hz3 : (![0, 0, 0] : Fin 3 → Nat) = fun _ => 0 := funext fun a => by fin_cases a <;> rfl

/-- What point `t` writes back is block `t` of the shares. -/
theorem flushed_eq (c : Dev nD) (t : Fin cfg0.N) :
    (dats m 0 c).flushed 2 t = ((cfg0.win 2).blk t).view.read (Elt Ideal) (partials m c) := by
  show (cfg0.win 2).cut (grid0.coords t) ((dats m 0 c).after 2 t) = _
  rw [after0_2]
  unfold out0_2
  rw [View.canon_unit_zero hz3]
  simp only [View.ld_unit_zero (S := S10000x128) hz2]
  funext j
  have ht : t.val < 100 := lt_of_lt_of_eq t.isLt N_0
  obtain ⟨-, -, -, -, e0, -, -⟩ := idx_facts t
  refine (pay_apply (iblk m c 0 t) (iblk m c 1 t) j).trans ((block_eq m c t ht).trans ?_)
  show blockSum (argA m c) (argB m c) ⟨t.val, ht⟩
    = blockSum (argA m c) (argB m c) ⟨((((cfg0.win 2).blk t).view.emb j) 0).val, _⟩
  refine congrArg (blockSum (argA m c) (argB m c)) (Fin.ext ?_)
  have hj : (j 0).val < 1 := (j 0).isLt
  show t.val = win0_2.index t (0 : Fin 3) * 1 + 1 * (j 0).val
  rw [e0]
  omega

/-- An index of the output is in point `t`'s block iff each coordinate is in the block's range on its axis. -/
theorem mem_blk (t : Fin cfg0.N) (i : S100x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v2).slice (win0_2.rect t)).set ↔ _
  rw [View.set_slice_whole, Rect.mem_set_unit]
  exact Iff.rfl

/-- Every entry of the output is in the block of the point numbered by its first coordinate. -/
theorem cover (i : S100x1x1.Idx) :
    ∃ t : Fin cfg0.N, (cfg0.win 2).flush t = true ∧ i ∈ ((cfg0.win 2).blk t).view.set := by
  have h0 : (i 0).val < 100 := (i 0).isLt
  have h1 : (i 1).val < 1 := (i 1).isLt
  have h2 : (i 2).val < 1 := (i 2).isLt
  refine ⟨⟨(i 0).val, lt_of_lt_of_eq h0 N_0.symm⟩, flush0_2 _, ?_⟩
  obtain ⟨-, -, -, -, e0, e1, e2⟩ := idx_facts ⟨(i 0).val, lt_of_lt_of_eq h0 N_0.symm⟩
  rw [mem_blk]
  intro a
  match a with
  | ⟨0, _⟩ =>
    show win0_2.index _ (0 : Fin 3) * 1 ≤ (i 0).val ∧ (i 0).val < win0_2.index _ (0 : Fin 3) * 1 + 1
    rw [e0]; show (i 0).val * 1 ≤ (i 0).val ∧ (i 0).val < (i 0).val * 1 + 1; omega
  | ⟨1, _⟩ =>
    show win0_2.index _ (1 : Fin 3) * 1 ≤ (i 1).val ∧ (i 1).val < win0_2.index _ (1 : Fin 3) * 1 + 1
    rw [e1]; omega
  | ⟨2, _⟩ =>
    show win0_2.index _ (2 : Fin 3) * 1 ≤ (i 2).val ∧ (i 2).val < win0_2.index _ (2 : Fin 3) * 1 + 1
    rw [e2]; omega

/-- The output array after the region holds the 100 shares. -/
theorem final (c : Dev nD) : (dats m 0 c).arrAt 2 cfg0.N = partials m c :=
  (dats m 0 c).arrAt_eq_of_cover 2 (partials m c) (fun t _ => flushed_eq m c t) (cover)

end Cert.KernelIdeal.RegionValue

end
-- ==== Proof.KernelValue.lean ====
/-
  The kernel program's result is the mean of the rows' norms.

  After the region the program sums the 100 numbers of the output from the zero word, which is 0, and divides by the
  word of 2 000 000.  The 100 numbers are the blocks' shares of the sum of the rows' norms, and the shares add up to
  that sum whatever the grouping, so the quotient is the mean.  The run below is the generated frame run with its
  result buffer read as that number.
-/
import proofs.«154441_j78434692760202_2_alg».proof.Proof.Blocks
import proofs.«154441_j78434692760202_2_alg».proof.Proof.LibIdxSum

noncomputable section

open scoped BigOperators

namespace Cert.KernelIdeal.RunValue

open Cert.KernelIdeal Cert.KernelIdeal.Gen Idealize.ShloMosaic Idealize.ShloMosaic.TcCoe Idealize.SL.Sem
open Idealize.ShloMosaic.StableHlo Idealize.ShloMosaic.ValueIdx Cert.MeanRowNorm Cert.KernelIdeal.RegionValue

variable (m : (ℓ : Loc nD τ sig) → Buf (Elt Ideal) ℓ)

/-- The sum of the output's 100 entries from the zero word is the sum of all the rows' norms. -/
theorem sum_partials (c : Dev nD) (h' : S100x1x1.ReducesTo [0, 1, 2] S_) (h0 : 0 < S_.numel) (i : S_.Idx) :
    Host.reduceAdd (partials m c : FVec Ideal S100x1x1 .f32) (constant (F := Ideal) S_ .f32 0x00000000#32) h' h0 i
      = total (argA m c) (argB m c) := by
  simp only [Host.reduceAdd, Ideal.hostReduceAdd_def]
  rw [Ideal.hostReduceAdd_total h' (fun b => b.elim0) _ _ i, total_eq_blocks, Cert.IdxSum.sum_idx3_unit]
  show Ideal.ofBits .f32 0x00000000#32 + _ = _
  rw [Ideal.ofBits_zero_f32, zero_add]
  rfl

/-- That sum divided by the word of 2 000 000 is the mean. -/
theorem mean_of_partials (c : Dev nD) (h' : S100x1x1.ReducesTo [0, 1, 2] S_) (h0 : 0 < S_.numel) :
    (Host.divf (Host.reduceAdd (partials m c : FVec Ideal S100x1x1 .f32) (constant (F := Ideal) S_ .f32 0x00000000#32) h' h0)
        (constant (F := Ideal) S_ .f32 0x49F42400#32) : FVec Ideal S_ .f32)
      = fun _ => mean (argA m c) (argB m c) := by
  funext i
  show Ideal.div (Host.reduceAdd (partials m c : FVec Ideal S100x1x1 .f32) (constant (F := Ideal) S_ .f32 0x00000000#32) h' h0 i)
      (Ideal.ofBits .f32 0x49F42400#32) = _
  rw [sum_partials]
  rfl

/-- After the region the output buffer holds the 100 shares. -/
theorem withArrays_v2 (c : Dev nD) :
    Pipeline.withArrays (cfgs 0).spec c (V0 m c) (fun w => (dats m 0 c).arrAt w (cfgs 0).N) (Proc.devRef .tc main_v2)
      = partials m c :=
  (Pipeline.withArrays_arr spec0 launch0.win.arr_inj c _ _ 2).trans (final m c)

/-- The program's result buffer after the lines that follow the region. -/
theorem tail_eq (c : Dev nD) :
    (Pipeline.afterTail₀ cfgs (dats m) 0 (V0 m) [hostOps1] c main_v4 : S_.Idx → EReal)
      = fun _ => mean (argA m c) (argB m c) := by
  unfold Pipeline.afterTail₀
  show StableHlo.after hostOps1 _ (Proc.devRef .tc main_v4) = _
  after_results
  rw [withArrays_v2]
  exact mean_of_partials m c _ _

/-- Every weakly fair execution of the kernel program terminates with the result at the mean of the rows' norms of the
    launched arrays, and the arrays unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v4) = (fun _ => mean (argA m c) (argB m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.RunValue

end
-- ==== Proof.lean ====
/-
  The mean Euclidean norm of the rows of A − B, for two 2 000 000 × 64 arrays: a tiled kernel against the plain
  formula, equal on the extended reals.

  The reference takes the difference, squares it, sums each row's 64 squares, takes the square root of each of the
  2 000 000 sums, adds the roots up and divides by 2 000 000.  The kernel program first views each array, row-major, as
  1 000 000 × 128, so that one 128-entry row is two consecutive 64-entry rows; a grid of 100 points each takes 10 000 rows
  of the views, forms for every row the root of the sum of the squares of its left half and of its right half, adds the
  two roots, and sums the 10 000 row values into one number; after the grid the 100 numbers are summed and divided by
  the same 2 000 000.  Every initial value of a sum is the zero word, which is 0, and the divisor is one and the same
  float word in both programs, so it is never evaluated.

  The two results differ only in how the sum of the 2 000 000 norms is grouped: all at once, or as 100 blocks of 10 000
  pairs.  Addition on the extended reals is commutative and associative, so the two groupings give one number; no entry
  needs to be finite for that, and the precondition is not used by the value claim.

  The frames are the generated ones (the reference's is its generated run with the result dropped); the rewriting
  pass changed nothing in the kernel, so that conjunct is trivially true.
-/
import proofs.«154441_j78434692760202_2_alg».proof.Defs
import proofs.«154441_j78434692760202_2_alg».proof.Proof.Gen.Kernel
import proofs.«154441_j78434692760202_2_alg».proof.Proof.Gen.Kernel.Skeleton
import proofs.«154441_j78434692760202_2_alg».proof.Proof.Gen.Kernel.Launch
import proofs.«154441_j78434692760202_2_alg».proof.Proof.Gen.Kernel.Points
import proofs.«154441_j78434692760202_2_alg».proof.Proof.Gen.Kernel.Frame
import proofs.«154441_j78434692760202_2_alg».proof.Proof.Gen.KernelIdeal
import proofs.«154441_j78434692760202_2_alg».proof.Proof.Gen.KernelIdeal.Skeleton
import proofs.«154441_j78434692760202_2_alg».proof.Proof.Gen.KernelIdeal.Launch
import proofs.«154441_j78434692760202_2_alg».proof.Proof.Gen.KernelIdeal.Points
import proofs.«154441_j78434692760202_2_alg».proof.Proof.Gen.KernelIdeal.Frame
import proofs.«154441_j78434692760202_2_alg».proof.Proof.Gen.ReferenceIdeal
import proofs.«154441_j78434692760202_2_alg».proof.Proof.Gen.Pre_finite_inputs
import proofs.«154441_j78434692760202_2_alg».proof.Proof.Gen.ReferenceIdeal.Run
import proofs.«154441_j78434692760202_2_alg».proof.Proof.Gen.ReferenceIdeal.Read
import proofs.«154441_j78434692760202_2_alg».proof.Proof.RefIsSpec
import proofs.«154441_j78434692760202_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals: nothing to state. -/
theorem preserves : Cert.preserves_Kernel_KernelIdeal := trivial

/-- From memories that agree on the two arrays both programs end with the mean of the rows' norms of those arrays:
    the kernel program by its run read through the blocks, the reference by its run read one operation at a time. -/
theorem algebraic : Cert.algebraic_KernelIdeal_ReferenceIdeal := by
  intro m ρ m' ρ' _ hagree
  refine ⟨fun c => fun _ => Cert.MeanRowNorm.mean (Cert.KernelIdeal.RegionValue.argA m c) (Cert.KernelIdeal.RegionValue.argB m c),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, (hagree c).1, (hagree c).2]
  funext i
  exact Cert.ReferenceIdeal.RefValue.result_apply _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
